-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  main_v3
-- ==== Kernel.lean ====
abbrev S32x1x1024x1024 : Shape := ⟨4, ![32, 1, 1024, 1024]⟩
abbrev S1x1x1024x1024 : Shape := ⟨4, ![1, 1, 1024, 1024]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  rotates_S1024x1024_d0 : S1024x1024.Rotates 0 none
  rotates_S1024x1024_d1 : S1024x1024.Rotates 1 none
  shapeCasts_S1024x1024_S1x1x1024x1024 : S1024x1024.ShapeCasts S1x1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S32x1x1024x1024.size a
  hwx0_0 : ∀ i : grid0.Coords, EltTy.bits .f32 = 32 ∨ (Rect.block (s := S32x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S32x1x1024x1024.size a
  hwx0_1 : ∀ i : grid0.Coords, EltTy.bits .f32 = 32 ∨ (Rect.block (s := S32x1x1024x1024) S1x1x1024x1024.size (cc0_transform_1 i) (hinb0_1 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S_ : Shape := ⟨0, ![]⟩
abbrev S32x1x1x1024 : Shape := ⟨4, ![32, 1, 1, 1024]⟩
abbrev S32x1x1023x1024 : Shape := ⟨4, ![32, 1, 1023, 1024]⟩
abbrev S32x1x1024x1 : Shape := ⟨4, ![32, 1, 1024, 1]⟩
abbrev S32x1x1024x1023 : Shape := ⟨4, ![32, 1, 1024, 1023]⟩

abbrev nBuf : Space → Nat
  | .hbm => 53
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .i1⟩
  | .hbm, ⟨2, _⟩ => ⟨S_, .f32⟩
  | .hbm, ⟨3, _⟩ => ⟨S32x1x1024x1024, .f32⟩
  | .hbm, ⟨4, _⟩ => ⟨S32x1x1024x1024, .f32⟩
  | .hbm, ⟨5, _⟩ => ⟨S32x1x1x1024, .f32⟩
  | .hbm, ⟨6, _⟩ => ⟨S32x1x1023x1024, .f32⟩
  | .hbm, ⟨7, _⟩ => ⟨S32x1x1024x1024, .f32⟩
  | .hbm, ⟨8, _⟩ => ⟨S32x1x1024x1024, .f32⟩
  | .hbm, ⟨9, _⟩ => ⟨S32x1x1024x1024, .i1⟩
  | .hbm, ⟨10, _⟩ => ⟨S_, .f32⟩
  | .hbm, ⟨11, _⟩ => ⟨S32x1x1024x1024, .f32⟩
  | .hbm, ⟨12, _⟩ => ⟨S32x1x1024x1024, .f32⟩
  | .hbm, ⟨13, _⟩ => ⟨S32x1x1x1024, .f32⟩
  | .hbm, ⟨14, _⟩ => ⟨S32x1x1023x1024, .f32⟩
  | .hbm, ⟨15, _⟩ => ⟨S32x1x1024x1024, .f32⟩
  | .hbm, ⟨16, _⟩ => ⟨S32x1x1024x1024, .f32⟩
  | .hbm, ⟨17, _⟩ => ⟨S32x1x1024x1024, .i1⟩
  | .hbm, ⟨18, _⟩ => ⟨S_, .f32⟩
  | .hbm, ⟨19, _⟩ => ⟨S32x1x1024x1024, .f32⟩
  | .hbm, ⟨20, _⟩ => ⟨S32x1x1024x1024, .f32⟩
  | .hbm, ⟨21, _⟩ => ⟨S32x1x1024x1, .f32⟩
  | .hbm, ⟨22, _⟩ => ⟨S32x1x1024x1023, .f32⟩
  | .hbm, ⟨23, _⟩ => ⟨S32x1x1024x1024, .f32⟩
  | .hbm, ⟨24, _⟩ => ⟨S32x1x1024x1024, .f32⟩
  | .hbm, ⟨25, _⟩ => ⟨S32x1x1024x1024, .i1⟩
  | .hbm, ⟨26, _⟩ => ⟨S_, .f32⟩
  | .hbm, ⟨27, _⟩ => ⟨S32x1x1024x1024, .f32⟩
  | .hbm, ⟨28, _⟩ => ⟨S32x1x1024x1024, .f32⟩
  | .hbm, ⟨29, _⟩ => ⟨S32x1x1024x1, .f32⟩
  | .hbm, ⟨30, _⟩ => ⟨S32x1x1024x1023, .f32⟩
  | .hbm, ⟨31, _⟩ => ⟨S32x1x1024x1024, .f32⟩
  | .hbm, ⟨32, _⟩ => ⟨S32x1x1024x1024, .f32⟩
  | .hbm, ⟨33, _⟩ => ⟨S32x1x1024x1024, .i1⟩
  | .hbm, ⟨34, _⟩ => ⟨S_, .f32⟩
  | .hbm, ⟨35, _⟩ => ⟨S32x1x1024x1024, .f32⟩
  | .hbm, ⟨36, _⟩ => ⟨S32x1x1024x1024, .f32⟩
  | .hbm, ⟨37, _⟩ => ⟨S32x1x1024x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S32x1x1024x1024, .f32⟩
  | .hbm, ⟨42, _⟩ => ⟨S32x1x1024x1024, .f32⟩
  | .hbm, ⟨43, _⟩ => ⟨S_, .f32⟩
  | .hbm, ⟨44, _⟩ => ⟨S32x1x1024x1024, .f32⟩
  | .hbm, ⟨45, _⟩ => ⟨S32x1x1024x1024, .f32⟩
  | .hbm, ⟨46, _⟩ => ⟨S_, .f32⟩
  | .hbm, ⟨47, _⟩ => ⟨S32x1x1024x1024, .f32⟩
  | .hbm, ⟨48, _⟩ => ⟨S32x1x1024x1024, .f32⟩
  | .hbm, ⟨49, _⟩ => ⟨S32x1x1024x1024, .i1⟩
  | .hbm, ⟨50, _⟩ => ⟨S_, .f32⟩
  | .hbm, ⟨51, _⟩ => ⟨S32x1x1024x1024, .f32⟩
  | .hbm, ⟨52, _⟩ => ⟨S32x1x1024x1024, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_call0_v0 : Ref sig .tc := ⟨.hbm, 3, rfl⟩
abbrev main_v1 : Ref sig .tc := ⟨.hbm, 4, rfl⟩
abbrev main_call1_v0 : Ref sig .tc := ⟨.hbm, 5, rfl⟩
abbrev main_call1_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_call2_v0 : Ref sig .tc := ⟨.hbm, 11, rfl⟩
abbrev main_v5 : Ref sig .tc := ⟨.hbm, 12, rfl⟩
abbrev main_call3_v0 : Ref sig .tc := ⟨.hbm, 13, rfl⟩
abbrev main_call3_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_call4_v0 : Ref sig .tc := ⟨.hbm, 19, rfl⟩
abbrev main_v9 : Ref sig .tc := ⟨.hbm, 20, rfl⟩
abbrev main_call5_v0 : Ref sig .tc := ⟨.hbm, 21, rfl⟩
abbrev main_call5_v1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_call6_v0 : Ref sig .tc := ⟨.hbm, 27, rfl⟩
abbrev main_v13 : Ref sig .tc := ⟨.hbm, 28, rfl⟩
abbrev main_call7_v0 : Ref sig .tc := ⟨.hbm, 29, rfl⟩
abbrev main_call7_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_call8_v0 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_cst_5 : Ref sig .tc := ⟨.hbm, 39, rfl⟩
abbrev main_call9_v0 : Ref sig .tc := ⟨.hbm, 40, rfl⟩
abbrev main_call9_v1 : Ref sig .tc := ⟨.hbm, 41, rfl⟩
abbrev main_call9_v2 : Ref sig .tc := ⟨.hbm, 42, rfl⟩
abbrev main_call9_v3 : Ref sig .tc := ⟨.hbm, 43, rfl⟩
abbrev main_call9_v4 : Ref sig .tc := ⟨.hbm, 44, rfl⟩
abbrev main_v19 : Ref sig .tc := ⟨.hbm, 45, rfl⟩
abbrev main_cst_6 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_7 : Ref sig .tc := ⟨.hbm, 50, rfl⟩
abbrev main_call10_v0 : Ref sig .tc := ⟨.hbm, 51, rfl⟩
abbrev main_v23 : Ref sig .tc := ⟨.hbm, 52, rfl⟩

abbrev nD : Nat := 1
abbrev τ : Topo := Topo.v7x

variable {F : FTy → Type} [FloatOps F]

class Facts₀ : Prop where
  bcast_S_S32x1x1024x1024 : S_.BroadcastsInDim S32x1x1024x1024 (![] : Fin 0 → Fin S32x1x1024x1024.rank)
  slices_S32x1x1024x1024_S32x1x1x1024_0_0_1023_0 : S32x1x1024x1024.Slices ![0, 0, 1023, 0] S32x1x1x1024
  slices_S32x1x1024x1024_S32x1x1023x1024_0_0_0_0 : S32x1x1024x1024.Slices ![0, 0, 0, 0] S32x1x1023x1024
  concatenates_S32x1x1x1024_S32x1x1023x1024_S32x1x1024x1024_d2 : Shape.Concatenates [S32x1x1x1024, S32x1x1023x1024] S32x1x1024x1024 2
  slices_S32x1x1024x1024_S32x1x1024x1_0_0_0_1023 : S32x1x1024x1024.Slices ![0, 0, 0, 1023] S32x1x1024x1
  slices_S32x1x1024x1024_S32x1x1024x1023_0_0_0_0 : S32x1x1024x1024.Slices ![0, 0, 0, 0] S32x1x1024x1023
  concatenates_S32x1x1024x1_S32x1x1024x1023_S32x1x1024x1024_d3 : Shape.Concatenates [S32x1x1024x1, S32x1x1024x1023] S32x1x1024x1024 3

variable [Facts₀]

class Facts : Prop extends Facts₀ where

variable [Facts]
-- ==== Proof.Stencil.lean ====
/-
  The periodic second-difference stencil, as mathematics, with no program in sight.

  A plane is a function `p` on a 1024 × 1024 torus: both coordinates are read modulo 1024, and `back1`, `back2` step a
  coordinate one and two places back around the circle. Two spellings of the same discrete Laplacian are set side by side:

  * `nested`: the backward difference taken twice along each axis, `(p[h-2] - p[h-1]) - (p[h-1] - p[h])` along the rows
    plus the same along the columns;
  * `flat`: the telescoped form `2·p + p[h-2] - 2·p[h-1] + p[w-2] - 2·p[w-1]`, accumulated from left to right.

  On the extended reals subtraction does not cancel at the infinities, so the two agree only where the plane's entries are
  real numbers; there the identity is one `ring` in ℝ (`nested_eq_flat`). `clipHalf` is the common tail: clamp to
  [-1, 1], then halve. `G` is the whole map on a stack of planes indexed by two leading coordinates.
-/
import Idealize.ShloMosaic.PureOps.Ideal
import Idealize.ShloMosaic.Lib.ValueIdx

noncomputable section

namespace Cert.Stencil

open Idealize.ShloMosaic Idealize.ShloMosaic.ValueIdx

/-- One place back around a circle of 1024 positions. -/
def back1 (j : Fin 1024) : Fin 1024 := ⟨(j.val + 1023) % 1024, Nat.mod_lt _ (by norm_num)⟩

/-- Two places back around a circle of 1024 positions. -/
def back2 (j : Fin 1024) : Fin 1024 := ⟨(j.val + 1022) % 1024, Nat.mod_lt _ (by norm_num)⟩

/-- Stepping back once, twice, is stepping back two places. -/
theorem back1_back1 (j : Fin 1024) : back1 (back1 j) = back2 j := by
  apply Fin.ext
  show ((j.val + 1023) % 1024 + 1023) % 1024 = (j.val + 1022) % 1024
  omega

/-- The literals of the two programs, as the extended reals their bit patterns denote. -/
abbrev two : EReal := Ideal.ofBits .f32 0x40000000#32
abbrev one : EReal := Ideal.ofBits .f32 0x3F800000#32
abbrev negOne : EReal := Ideal.ofBits .f32 0xBF800000#32
abbrev half : EReal := Ideal.ofBits .f32 0x3F000000#32

/-- The pattern `0x40000000` is the real number 2. -/
theorem two_eq : two = ((2 : ℝ) : EReal) := by
  unfold two
  simp [Ideal.ofBits, Ideal.ieee, -EReal.coe_mul]; norm_num

/-- The Laplacian as two nested backward differences per axis. -/
def nested (p : Fin 1024 → Fin 1024 → EReal) (h w : Fin 1024) : EReal :=
  ((p (back1 (back1 h)) w - p (back1 h) w) - (p (back1 h) w - p h w))
    + ((p h (back1 (back1 w)) - p h (back1 w)) - (p h (back1 w) - p h w))

/-- The Laplacian telescoped, accumulated left to right. -/
def flat (p : Fin 1024 → Fin 1024 → EReal) (h w : Fin 1024) : EReal :=
  (((two * p h w + p (back2 h) w) - two * p (back1 h) w) + p h (back2 w)) - two * p h (back1 w)

/-- Clamp to [-1, 1], then halve. -/
def clipHalf (v : EReal) : EReal := min one (max negOne v) * half

/-- On a plane of real numbers the nested differences telescope to the flat form. -/
theorem nested_eq_flat (p : Fin 1024 → Fin 1024 → EReal) (hp : ∀ h w, ∃ r : ℝ, p h w = (r : EReal)) (h w : Fin 1024) :
    nested p h w = flat p h w := by
  unfold nested flat
  rw [back1_back1, back1_back1, two_eq]
  obtain ⟨a0, e0⟩ := hp h w
  obtain ⟨a1, e1⟩ := hp (back1 h) w
  obtain ⟨a2, e2⟩ := hp (back2 h) w
  obtain ⟨b1, f1⟩ := hp h (back1 w)
  obtain ⟨b2, f2⟩ := hp h (back2 w)
  rw [e0, e1, e2, f1, f2]
  simp only [← EReal.coe_sub, ← EReal.coe_add, ← EReal.coe_mul]
  exact congrArg _ (by ring)

/-- The shape of the argument and of the result: 32 × 1 planes of 1024 × 1024. -/
abbrev X : Shape := ⟨4, ![32, 1, 1024, 1024]⟩

/-- The plane of `x` at the leading coordinates `(b, c)`. -/
def plane (x : X.Idx → EReal) (b : Fin 32) (c : Fin 1) : Fin 1024 → Fin 1024 → EReal := fun h w => x (ix4 b c h w)

/-- The whole map: every plane's clipped, halved Laplacian (in the flat spelling). -/
def G (x : X.Idx → EReal) : X.Idx → EReal := fun i => clipHalf (flat (plane x (i 0) (i 1)) (i 2) (i 3))

theorem G_apply (x : X.Idx → EReal) (b : Fin 32) (c : Fin 1) (h w : Fin 1024) :
    G x (ix4 b c h w) = clipHalf (flat (plane x b c) h w) := rfl

end Cert.Stencil

end
-- ==== Proof.KernelValue.lean ====
/-
  What the kernel leaves in its result array, at the extended reals.

  The grid has 32 points; point `t` stages plane `t` of the argument (a 1 × 1 × 1024 × 1024 block), and writes back one
  block of the same shape. The body drops the two unit axes, forms `2·p`, adds the plane rotated two rows down, subtracts
  twice the plane rotated one row down, does the same along the columns, clamps to [-1, 1], halves, and puts the unit axes
  back. A rotation by `s` along an axis reads, at position `j`, position `j - s` around the circle of 1024 — so the
  body's value at `(h, w)` is the flat Laplacian of Stencil.lean, clipped and halved (`payload_apply`). Point `t`'s block
  is therefore block `t` of `G` of the whole argument (`flushed_eq`), the 32 blocks cover the array (`cover`), and the
  array ends as `G` of the argument (`final`, `run`).
-/
import proofs.«128905_j22711787061657_2_alg».proof.Proof.Gen.KernelIdeal.Value
import proofs.«128905_j22711787061657_2_alg».proof.Proof.Stencil
import Idealize.ShloMosaic.Lib.KernelVsHost
import Idealize.ShloMosaic.Lib.ValueLayout

noncomputable section

namespace Cert.KernelIdeal.Lap

open Cert.KernelIdeal Cert.KernelIdeal.Gen Idealize.ShloMosaic Idealize.ShloMosaic.TcCoe Idealize.SL.Sem
open Idealize.ShloMosaic.ValueIdx Cert.Stencil
open Idealize.ShloMosaic.Pipeline (Dat)

/-! ## Rotations and unit axes, read at an index -/

/-- A rotation of a 1024 × 1024 array along its ROWS by `sb` places reads, at row `h`, the row `sb` places back around
    the circle. -/
theorem rotate_rows {α : Type} (sb : BitVec 32) (x : S1024x1024.Idx → α) (hr : S1024x1024.Rotates 0 none)
    (h h' w : Fin 1024) (e : h'.val = (h.val + 1024 - sb.toNat % 1024) % 1024) :
    dynamicRotate 0 sb none x hr (ix2 h w) = x (ix2 h' w) :=
  dynamicRotate_apply (0 : Fin 2) sb x hr (ix2 h w) (ix2 h' w) (by
    intro b
    match b with
    | ⟨0, _⟩ => refine e.trans ?_; exact (if_pos rfl).symm
    | ⟨1, _⟩ =>
      exact (if_neg (fun hh => absurd (show (1 : Nat) = 0 from congrArg Fin.val hh) (by decide))).symm)

/-- A rotation of a 1024 × 1024 array along its COLUMNS by `sb` places reads, at column `w`, the column `sb` places
    back around the circle. -/
theorem rotate_cols {α : Type} (sb : BitVec 32) (x : S1024x1024.Idx → α) (hr : S1024x1024.Rotates 1 none)
    (h w w' : Fin 1024) (e : w'.val = (w.val + 1024 - sb.toNat % 1024) % 1024) :
    dynamicRotate 1 sb none x hr (ix2 h w) = x (ix2 h w') :=
  dynamicRotate_apply (1 : Fin 2) sb x hr (ix2 h w) (ix2 h w') (by
    intro b
    match b with
    | ⟨0, _⟩ =>
      exact (if_neg (fun hh => absurd (show (0 : Nat) = 1 from congrArg Fin.val hh) (by decide))).symm
    | ⟨1, _⟩ => refine e.trans ?_; exact (if_pos rfl).symm)

/-- A 1 × 1 × 1024 × 1024 block with its unit axes dropped reads, at `(h, w)`, the block at `(0, 0, h, w)`. -/
theorem drop_units_apply {α : Type} (x : S1x1x1024x1024.Idx → α) (hc : S1x1x1024x1024.ShapeCasts S1024x1024)
    (h w : Fin 1024) : shapeCast S1024x1024 x hc (ix2 h w) = x (ix4 (0 : Fin 1) (0 : Fin 1) h w) :=
  shapeCast_apply x hc _ _ (by
    rw [Shape.rowMajor_val_four, Shape.rowMajor_val_two]
    show ((0 * 1 + 0) * 1024 + h.val) * 1024 + w.val = h.val * 1024 + w.val
    omega)

/-- A 1024 × 1024 plane with two unit axes put in front reads, at `(u, c, h, w)`, the plane at `(h, w)`. -/
theorem add_units_apply {α : Type} (x : S1024x1024.Idx → α) (hc : S1024x1024.ShapeCasts S1x1x1024x1024)
    (u c : Fin 1) (h w : Fin 1024) : shapeCast S1x1x1024x1024 x hc (ix4 u c h w) = x (ix2 h w) :=
  shapeCast_apply x hc _ _ (by
    have hu : u.val = 0 := by omega
    have hcv : c.val = 0 := by omega
    rw [Shape.rowMajor_val_four, Shape.rowMajor_val_two]
    show h.val * 1024 + w.val = ((u.val * 1 + c.val) * 1024 + h.val) * 1024 + w.val
    omega)

/-! ## The body's arithmetic on one plane -/

/-- The body's operations on a plane, as the program spells them: the running sum
    `2·p + rot₂ʳ p - 2·rot₁ʳ p + rot₂ᶜ p - 2·rot₁ᶜ p`, clamped and halved. -/
def onPlane (p : FVec Ideal S1024x1024 .f32) (h0 : S1024x1024.Rotates 0 none) (h1 : S1024x1024.Rotates 1 none) :
    FVec Ideal S1024x1024 .f32 :=
  mulf (minimumf (broadcast S1024x1024 one) (maximumf (broadcast S1024x1024 negOne)
    (subf (addf (subf (addf (mulf (broadcast S1024x1024 two) p) (dynamicRotate 0 2#32 none p h0))
      (mulf (broadcast S1024x1024 two) (dynamicRotate 0 1#32 none p h0))) (dynamicRotate 1 2#32 none p h1))
      (mulf (broadcast S1024x1024 two) (dynamicRotate 1 1#32 none p h1))))) (broadcast S1024x1024 half)

/-- At `(h, w)` that is the flat Laplacian of the plane, clipped and halved: each rotation reads one or two places
    back around the circle. -/
theorem onPlane_apply (p : FVec Ideal S1024x1024 .f32) (h0 : S1024x1024.Rotates 0 none) (h1 : S1024x1024.Rotates 1 none)
    (h w : Fin 1024) : onPlane p h0 h1 (ix2 h w) = clipHalf (flat (fun h' w' => p (ix2 h' w')) h w) := by
  show min one (max negOne ((((two * p (ix2 h w) + dynamicRotate 0 2#32 none p h0 (ix2 h w))
      - two * dynamicRotate 0 1#32 none p h0 (ix2 h w)) + dynamicRotate 1 2#32 none p h1 (ix2 h w))
      - two * dynamicRotate 1 1#32 none p h1 (ix2 h w))) * half = _
  rw [rotate_rows 2#32 p h0 h (back2 h) w (by show (h.val + 1022) % 1024 = (h.val + 1024 - 2 % 1024) % 1024; omega),
    rotate_rows 1#32 p h0 h (back1 h) w (by show (h.val + 1023) % 1024 = (h.val + 1024 - 1 % 1024) % 1024; omega),
    rotate_cols 2#32 p h1 h w (back2 w) (by show (w.val + 1022) % 1024 = (w.val + 1024 - 2 % 1024) % 1024; omega),
    rotate_cols 1#32 p h1 h w (back1 w) (by show (w.val + 1023) % 1024 = (w.val + 1024 - 1 % 1024) % 1024; omega)]
  rfl

/-- The body's stored value is `onPlane` of the loaded block between the two changes of shape. -/
theorem payload_eq (v0 : Vec Ideal S1x1x1024x1024 .f32) :
    k0_pay1 (F := Ideal) v0 = shapeCast S1x1x1024x1024
      (onPlane (shapeCast S1024x1024 v0 Facts₀.shapeCasts_S1x1x1024x1024_S1024x1024) Facts₀.rotates_S1024x1024_d0
        Facts₀.rotates_S1024x1024_d1) Facts₀.shapeCasts_S1024x1024_S1x1x1024x1024 := rfl

/-- The body's stored value at `(u, c, h, w)`: the flat Laplacian, clipped and halved, of the loaded block's plane. -/
theorem payload_apply (v0 : Vec Ideal S1x1x1024x1024 .f32) (u c : Fin 1) (h w : Fin 1024) :
    k0_pay1 (F := Ideal) v0 (ix4 u c h w)
      = clipHalf (flat (fun h' w' => v0 (ix4 (0 : Fin 1) (0 : Fin 1) h' w')) h w) := by
  rw [payload_eq, add_units_apply, onPlane_apply]
  have e : (fun h' w' => shapeCast S1024x1024 v0 Facts₀.shapeCasts_S1x1x1024x1024_S1024x1024 (ix2 h' w'))
      = fun h' w' => v0 (ix4 (0 : Fin 1) (0 : Fin 1) h' w') :=
    funext fun h' => funext fun w' => drop_units_apply v0 _ h' w'
  rw [e]

/-! ## From blocks to the array -/

variable (m : (ℓ : Loc nD τ sig) → Buf (Elt Ideal) ℓ) (ρ : Dev nD → PrngReg)

theorem offsets_zero : (![0, 0, 0, 0] : Fin 4 → Nat) = fun _ => 0 := funext fun a => by fin_cases a <;> rfl

/-- The two index maps, decided over the 32 grid points: point `t` stages and writes back block `(t, 0, 0, 0)`. -/
theorem block_index : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The staged block at point `t` is plane `t` of the argument. -/
theorem staged_plane (c : Dev nD) (t : Fin cfg0.N) (b : Fin 32) (hb : b.val = t.val) (h w : Fin 1024) :
    (iblk m c 0 t : Vec Ideal S1x1x1024x1024 .f32) (ix4 (0 : Fin 1) (0 : Fin 1) h w)
      = V m c main_arg0 (ix4 b (0 : Fin 1) h w) := by
  obtain ⟨e0, e1, e2, e3, -⟩ := block_index t
  show V m c main_arg0 (((cfg0.win 0).blk t).view.emb (ix4 (0 : Fin 1) (0 : Fin 1) h w))
    = V m c main_arg0 (ix4 b (0 : Fin 1) h w)
  refine congrArg (V m c main_arg0) (funext fun a => Fin.ext ?_)
  match a with
  | ⟨0, _⟩ => show win0_0.index t (0 : Fin 4) * 1 + 1 * 0 = b.val; omega
  | ⟨1, _⟩ => show win0_0.index t (1 : Fin 4) * 1 + 1 * 0 = 0; omega
  | ⟨2, _⟩ => show win0_0.index t (2 : Fin 4) * 1024 + 1 * h.val = h.val; omega
  | ⟨3, _⟩ => show win0_0.index t (3 : Fin 4) * 1024 + 1 * w.val = w.val; omega

/-- Point `t`'s body, at an index of its block, computes `G` of the whole argument at that block's place in the array. -/
theorem point_eq (c : Dev nD) (t : Fin cfg0.N) (j : S1x1x1024x1024.Idx) :
    k0_pay1 (F := Ideal) (iblk m c 0 t) j = G (V m c main_arg0) (((cfg0.win 1).blk t).view.emb j) := by
  obtain ⟨u, cc, h, w, rfl⟩ : ∃ (u cc : Fin 1) (h w : Fin 1024), j = ix4 u cc h w := ⟨j 0, j 1, j 2, j 3, eq_ix4 j⟩
  have ht : t.val < 32 := lt_of_lt_of_eq t.isLt N_0
  have hemb : ((cfg0.win 1).blk t).view.emb (ix4 u cc h w) = ix4 (⟨t.val, ht⟩ : Fin 32) (0 : Fin 1) h w := by
    obtain ⟨-, -, -, -, e0, e1, e2, e3⟩ := block_index t
    have hu : u.val = 0 := by omega
    have hcv : cc.val = 0 := by omega
    funext a; apply Fin.ext
    match a with
    | ⟨0, _⟩ => show win0_1.index t (0 : Fin 4) * 1 + 1 * u.val = t.val; omega
    | ⟨1, _⟩ => show win0_1.index t (1 : Fin 4) * 1 + 1 * cc.val = 0; omega
    | ⟨2, _⟩ => show win0_1.index t (2 : Fin 4) * 1024 + 1 * h.val = h.val; omega
    | ⟨3, _⟩ => show win0_1.index t (3 : Fin 4) * 1024 + 1 * w.val = w.val; omega
  rw [hemb, G_apply]
  refine (payload_apply (iblk m c 0 t) u cc h w).trans ?_
  have e : (fun h' w' => (iblk m c 0 t : Vec Ideal S1x1x1024x1024 .f32) (ix4 (0 : Fin 1) (0 : Fin 1) h' w'))
      = plane (V m c main_arg0) (⟨t.val, ht⟩ : Fin 32) (0 : Fin 1) :=
    funext fun h' => funext fun w' => staged_plane m c t ⟨t.val, ht⟩ rfl h' w'
  rw [e]

/-- WHAT POINT `t` WRITES BACK is block `t` of `G` of the argument. -/
theorem flushed_eq (c : Dev nD) (t : Fin cfg0.N) :
    (dats m 0 c).flushed 1 t = ((cfg0.win 1).blk t).view.read (Elt Ideal) (G (V m c main_arg0)) := by
  rw [Value.flushed1]
  unfold out0_1
  rw [View.canon_unit_zero offsets_zero]
  simp only [View.ld_unit_zero (S := S1x1x1024x1024) offsets_zero]
  funext j
  exact point_eq m c t j

/-- An index of the array is in point `t`'s block iff each coordinate is in the block's range on its axis. -/
theorem mem_blk (t : Fin cfg0.N) (i : S32x1x1024x1024.Idx) :
    i ∈ ((cfg0.win 1).blk t).view.set ↔ ∀ a : Fin 4, win0_1.index t a * S1x1x1024x1024.size a ≤ (i a).val
      ∧ (i a).val < win0_1.index t a * S1x1x1024x1024.size a + S1x1x1024x1024.size a := by
  show i ∈ ((View.whole main_v0).slice (win0_1.rect t)).set ↔ _
  rw [View.set_slice_whole, Rect.mem_set_unit]
  exact Iff.rfl

/-- Every index of the result array lies in the block of the point named by its leading coordinate. -/
theorem cover (i : S32x1x1024x1024.Idx) :
    ∃ t : Fin cfg0.N, (cfg0.win 1).flush t = true ∧ i ∈ ((cfg0.win 1).blk t).view.set := by
  have hi0 : (i 0).val < 32 := (i 0).isLt
  have hi1 : (i 1).val < 1 := (i 1).isLt
  have hi2 : (i 2).val < 1024 := (i 2).isLt
  have hi3 : (i 3).val < 1024 := (i 3).isLt
  have hN : (i 0).val < cfg0.N := lt_of_lt_of_eq hi0 N_0.symm
  obtain ⟨t, htv⟩ : ∃ t : Fin cfg0.N, t.val = (i 0).val := ⟨⟨(i 0).val, hN⟩, rfl⟩
  obtain ⟨-, -, -, -, e0, e1, e2, e3⟩ := block_index t
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1 ≤ (i 1).val ∧ (i 1).val < win0_1.index t (1 : Fin 4) * 1 + 1; omega
  | ⟨2, _⟩ => show win0_1.index t (2 : Fin 4) * 1024 ≤ (i 2).val ∧ (i 2).val < win0_1.index t (2 : Fin 4) * 1024 + 1024; omega
  | ⟨3, _⟩ => show win0_1.index t (3 : Fin 4) * 1024 ≤ (i 3).val ∧ (i 3).val < win0_1.index t (3 : Fin 4) * 1024 + 1024; omega

/-- THE ARRAY after the run is `G` of the argument. -/
theorem final (c : Dev nD) : (dats m 0 c).arrAt 1 cfg0.N = G (V m c main_arg0) :=
  (dats m 0 c).arrAt_eq_of_cover 1 (G (V m c main_arg0)) (fun t _ => flushed_eq m c t) cover

/-- The kernel's run: every execution ends with the result array at `G` of the argument, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Lap

end
-- ==== Proof.RefRun.lean ====
/-
  The reference's run, stage by stage.

  The reference is a straight line of 52 host operations. Read as one composed term its result repeats every shared
  intermediate once per use — each "replace NaN" reads its operand three times, each difference reads its operand three
  times — so here the line is cut where a value is handed on (after each scrubbed array), and each piece is read on its
  own as ONE named function of the buffers it starts from:

  * `scrub fill y`   — `where(y ≠ y, fill, y)`;
  * `diffRows y`, `diffCols y` — `roll(y, 1, axis) - y`, the roll printed as the last slice laid before the rest;
  * `clipScale a b` — `clip(a + b, -1, 1) · 0.5`.

  A piece's result is its function of the buffers it reads (`piece*`), and it leaves the buffers it does not write alone
  (`keep*`). Chained, the last buffer holds `scrub (clipScale (scrub (diffRows (scrub (diffRows (scrub x))))) …)`, which
  is, name by name, the last of the per-operation stages (`stage*`). `run` is the library's run of a straight line with
  that result.
-/
import proofs.«128905_j22711787061657_2_alg».proof.Proof.Gen.ReferenceIdeal
import proofs.«128905_j22711787061657_2_alg».proof.Proof.ReadP
import Idealize.ShloMosaic.Lib.StableHlo.Run

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The operations -/

/-- @main's 52 operations, in order (a called function's operations stand in its call's place). -/
abbrev ops : List (HloOp τ sig (Elt F)) :=
  [ binary main_arg0 main_arg0 main_v0 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst (constant S_ .f32 0x3F800000#32),
    TRef.unary (TRef.of (T := ⟨S_, .f32⟩) main_cst) (TRef.of (T := ⟨S32x1x1024x1024, .f32⟩) main_call0_v0) (broadcastInDim S32x1x1024x1024 ![] bcast_S_S32x1x1024x1024),
    TRef.ternary (TRef.of (T := ⟨S32x1x1024x1024, .i1⟩) main_v0) (TRef.of (T := ⟨S32x1x1024x1024, .f32⟩) main_call0_v0) (TRef.of (T := ⟨S32x1x1024x1024, .f32⟩) main_arg0) (TRef.of (T := ⟨S32x1x1024x1024, .f32⟩) main_v1) select,
    TRef.unary (TRef.of (T := ⟨S32x1x1024x1024, .f32⟩) main_v1) (TRef.of (T := ⟨S32x1x1x1024, .f32⟩) main_call1_v0) (extractStridedSlice S32x1x1x1024 ![0, 0, 1023, 0] · slices_S32x1x1024x1024_S32x1x1x1024_0_0_1023_0),
    TRef.unary (TRef.of (T := ⟨S32x1x1024x1024, .f32⟩) main_v1) (TRef.of (T := ⟨S32x1x1023x1024, .f32⟩) main_call1_v1) (extractStridedSlice S32x1x1023x1024 ![0, 0, 0, 0] · slices_S32x1x1024x1024_S32x1x1023x1024_0_0_0_0),
    TRef.binary (TRef.of (T := ⟨S32x1x1x1024, .f32⟩) main_call1_v0) (TRef.of (T := ⟨S32x1x1023x1024, .f32⟩) main_call1_v1) (TRef.of (T := ⟨S32x1x1024x1024, .f32⟩) main_v2) (fun a b => concatenate S32x1x1024x1024 2 [⟨S32x1x1x1024, a⟩, ⟨S32x1x1023x1024, b⟩] concatenates_S32x1x1x1024_S32x1x1023x1024_S32x1x1024x1024_d2),
    binary main_v2 main_v1 main_v3 (subf : (⟨S32x1x1024x1024, .f32⟩ : BufTy).Contents (Elt F) → (⟨S32x1x1024x1024, .f32⟩ : BufTy).Contents (Elt F) → (⟨S32x1x1024x1024, .f32⟩ : BufTy).Contents (Elt F)),
    binary main_v3 main_v3 main_v4 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_0 (constant S_ .f32 0x00000000#32),
    TRef.unary (TRef.of (T := ⟨S_, .f32⟩) main_cst_0) (TRef.of (T := ⟨S32x1x1024x1024, .f32⟩) main_call2_v0) (broadcastInDim S32x1x1024x1024 ![] bcast_S_S32x1x1024x1024),
    TRef.ternary (TRef.of (T := ⟨S32x1x1024x1024, .i1⟩) main_v4) (TRef.of (T := ⟨S32x1x1024x1024, .f32⟩) main_call2_v0) (TRef.of (T := ⟨S32x1x1024x1024, .f32⟩) main_v3) (TRef.of (T := ⟨S32x1x1024x1024, .f32⟩) main_v5) select,
    TRef.unary (TRef.of (T := ⟨S32x1x1024x1024, .f32⟩) main_v5) (TRef.of (T := ⟨S32x1x1x1024, .f32⟩) main_call3_v0) (extractStridedSlice S32x1x1x1024 ![0, 0, 1023, 0] · slices_S32x1x1024x1024_S32x1x1x1024_0_0_1023_0),
    TRef.unary (TRef.of (T := ⟨S32x1x1024x1024, .f32⟩) main_v5) (TRef.of (T := ⟨S32x1x1023x1024, .f32⟩) main_call3_v1) (extractStridedSlice S32x1x1023x1024 ![0, 0, 0, 0] · slices_S32x1x1024x1024_S32x1x1023x1024_0_0_0_0),
    TRef.binary (TRef.of (T := ⟨S32x1x1x1024, .f32⟩) main_call3_v0) (TRef.of (T := ⟨S32x1x1023x1024, .f32⟩) main_call3_v1) (TRef.of (T := ⟨S32x1x1024x1024, .f32⟩) main_v6) (fun a b => concatenate S32x1x1024x1024 2 [⟨S32x1x1x1024, a⟩, ⟨S32x1x1023x1024, b⟩] concatenates_S32x1x1x1024_S32x1x1023x1024_S32x1x1024x1024_d2),
    binary main_v6 main_v5 main_v7 (subf : (⟨S32x1x1024x1024, .f32⟩ : BufTy).Contents (Elt F) → (⟨S32x1x1024x1024, .f32⟩ : BufTy).Contents (Elt F) → (⟨S32x1x1024x1024, .f32⟩ : BufTy).Contents (Elt F)),
    binary main_v7 main_v7 main_v8 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_1 (constant S_ .f32 0x00000000#32),
    TRef.unary (TRef.of (T := ⟨S_, .f32⟩) main_cst_1) (TRef.of (T := ⟨S32x1x1024x1024, .f32⟩) main_call4_v0) (broadcastInDim S32x1x1024x1024 ![] bcast_S_S32x1x1024x1024),
    TRef.ternary (TRef.of (T := ⟨S32x1x1024x1024, .i1⟩) main_v8) (TRef.of (T := ⟨S32x1x1024x1024, .f32⟩) main_call4_v0) (TRef.of (T := ⟨S32x1x1024x1024, .f32⟩) main_v7) (TRef.of (T := ⟨S32x1x1024x1024, .f32⟩) main_v9) select,
    TRef.unary (TRef.of (T := ⟨S32x1x1024x1024, .f32⟩) main_v1) (TRef.of (T := ⟨S32x1x1024x1, .f32⟩) main_call5_v0) (extractStridedSlice S32x1x1024x1 ![0, 0, 0, 1023] · slices_S32x1x1024x1024_S32x1x1024x1_0_0_0_1023),
    TRef.unary (TRef.of (T := ⟨S32x1x1024x1024, .f32⟩) main_v1) (TRef.of (T := ⟨S32x1x1024x1023, .f32⟩) main_call5_v1) (extractStridedSlice S32x1x1024x1023 ![0, 0, 0, 0] · slices_S32x1x1024x1024_S32x1x1024x1023_0_0_0_0),
    TRef.binary (TRef.of (T := ⟨S32x1x1024x1, .f32⟩) main_call5_v0) (TRef.of (T := ⟨S32x1x1024x1023, .f32⟩) main_call5_v1) (TRef.of (T := ⟨S32x1x1024x1024, .f32⟩) main_v10) (fun a b => concatenate S32x1x1024x1024 3 [⟨S32x1x1024x1, a⟩, ⟨S32x1x1024x1023, b⟩] concatenates_S32x1x1024x1_S32x1x1024x1023_S32x1x1024x1024_d3),
    binary main_v10 main_v1 main_v11 (subf : (⟨S32x1x1024x1024, .f32⟩ : BufTy).Contents (Elt F) → (⟨S32x1x1024x1024, .f32⟩ : BufTy).Contents (Elt F) → (⟨S32x1x1024x1024, .f32⟩ : BufTy).Contents (Elt F)),
    binary main_v11 main_v11 main_v12 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_2 (constant S_ .f32 0x00000000#32),
    TRef.unary (TRef.of (T := ⟨S_, .f32⟩) main_cst_2) (TRef.of (T := ⟨S32x1x1024x1024, .f32⟩) main_call6_v0) (broadcastInDim S32x1x1024x1024 ![] bcast_S_S32x1x1024x1024),
    TRef.ternary (TRef.of (T := ⟨S32x1x1024x1024, .i1⟩) main_v12) (TRef.of (T := ⟨S32x1x1024x1024, .f32⟩) main_call6_v0) (TRef.of (T := ⟨S32x1x1024x1024, .f32⟩) main_v11) (TRef.of (T := ⟨S32x1x1024x1024, .f32⟩) main_v13) select,
    TRef.unary (TRef.of (T := ⟨S32x1x1024x1024, .f32⟩) main_v13) (TRef.of (T := ⟨S32x1x1024x1, .f32⟩) main_call7_v0) (extractStridedSlice S32x1x1024x1 ![0, 0, 0, 1023] · slices_S32x1x1024x1024_S32x1x1024x1_0_0_0_1023),
    TRef.unary (TRef.of (T := ⟨S32x1x1024x1024, .f32⟩) main_v13) (TRef.of (T := ⟨S32x1x1024x1023, .f32⟩) main_call7_v1) (extractStridedSlice S32x1x1024x1023 ![0, 0, 0, 0] · slices_S32x1x1024x1024_S32x1x1024x1023_0_0_0_0),
    TRef.binary (TRef.of (T := ⟨S32x1x1024x1, .f32⟩) main_call7_v0) (TRef.of (T := ⟨S32x1x1024x1023, .f32⟩) main_call7_v1) (TRef.of (T := ⟨S32x1x1024x1024, .f32⟩) main_v14) (fun a b => concatenate S32x1x1024x1024 3 [⟨S32x1x1024x1, a⟩, ⟨S32x1x1024x1023, b⟩] concatenates_S32x1x1024x1_S32x1x1024x1023_S32x1x1024x1024_d3),
    binary main_v14 main_v13 main_v15 (subf : (⟨S32x1x1024x1024, .f32⟩ : BufTy).Contents (Elt F) → (⟨S32x1x1024x1024, .f32⟩ : BufTy).Contents (Elt F) → (⟨S32x1x1024x1024, .f32⟩ : BufTy).Contents (Elt F)),
    binary main_v15 main_v15 main_v16 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_3 (constant S_ .f32 0x00000000#32),
    TRef.unary (TRef.of (T := ⟨S_, .f32⟩) main_cst_3) (TRef.of (T := ⟨S32x1x1024x1024, .f32⟩) main_call8_v0) (broadcastInDim S32x1x1024x1024 ![] bcast_S_S32x1x1024x1024),
    TRef.ternary (TRef.of (T := ⟨S32x1x1024x1024, .i1⟩) main_v16) (TRef.of (T := ⟨S32x1x1024x1024, .f32⟩) main_call8_v0) (TRef.of (T := ⟨S32x1x1024x1024, .f32⟩) main_v15) (TRef.of (T := ⟨S32x1x1024x1024, .f32⟩) main_v17) select,
    binary main_v9 main_v17 main_v18 (addf : (⟨S32x1x1024x1024, .f32⟩ : BufTy).Contents (Elt F) → (⟨S32x1x1024x1024, .f32⟩ : BufTy).Contents (Elt F) → (⟨S32x1x1024x1024, .f32⟩ : BufTy).Contents (Elt F)),
    nullary main_cst_4 (constant S_ .f32 0xBF800000#32),
    nullary main_cst_5 (constant S_ .f32 0x3F800000#32),
    TRef.unary (TRef.of (T := ⟨S_, .f32⟩) main_cst_4) (TRef.of (T := ⟨S_, .f32⟩) main_call9_v0) id,
    TRef.unary (TRef.of (T := ⟨S_, .f32⟩) main_call9_v0) (TRef.of (T := ⟨S32x1x1024x1024, .f32⟩) main_call9_v1) (broadcastInDim S32x1x1024x1024 ![] bcast_S_S32x1x1024x1024),
    TRef.binary (TRef.of (T := ⟨S32x1x1024x1024, .f32⟩) main_call9_v1) (TRef.of (T := ⟨S32x1x1024x1024, .f32⟩) main_v18) (TRef.of (T := ⟨S32x1x1024x1024, .f32⟩) main_call9_v2) maximumf,
    TRef.unary (TRef.of (T := ⟨S_, .f32⟩) main_cst_5) (TRef.of (T := ⟨S_, .f32⟩) main_call9_v3) id,
    TRef.unary (TRef.of (T := ⟨S_, .f32⟩) main_call9_v3) (TRef.of (T := ⟨S32x1x1024x1024, .f32⟩) main_call9_v4) (broadcastInDim S32x1x1024x1024 ![] bcast_S_S32x1x1024x1024),
    TRef.binary (TRef.of (T := ⟨S32x1x1024x1024, .f32⟩) main_call9_v4) (TRef.of (T := ⟨S32x1x1024x1024, .f32⟩) main_call9_v2) (TRef.of (T := ⟨S32x1x1024x1024, .f32⟩) main_v19) minimumf,
    nullary main_cst_6 (constant S_ .f32 0x3F000000#32),
    unary main_cst_6 main_v20 (broadcastInDim S32x1x1024x1024 ![] bcast_S_S32x1x1024x1024 : (⟨S_, .f32⟩ : BufTy).Contents (Elt F) → (⟨S32x1x1024x1024, .f32⟩ : BufTy).Contents (Elt F)),
    binary main_v19 main_v20 main_v21 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v21 main_v21 main_v22 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_7 (constant S_ .f32 0x00000000#32),
    TRef.unary (TRef.of (T := ⟨S_, .f32⟩) main_cst_7) (TRef.of (T := ⟨S32x1x1024x1024, .f32⟩) main_call10_v0) (broadcastInDim S32x1x1024x1024 ![] bcast_S_S32x1x1024x1024),
    TRef.ternary (TRef.of (T := ⟨S32x1x1024x1024, .i1⟩) main_v22) (TRef.of (T := ⟨S32x1x1024x1024, .f32⟩) main_call10_v0) (TRef.of (T := ⟨S32x1x1024x1024, .f32⟩) main_v21) (TRef.of (T := ⟨S32x1x1024x1024, .f32⟩) main_v23) select ]

abbrev seg1 : List (HloOp τ sig (Elt F)) :=
  [ binary main_arg0 main_arg0 main_v0 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst (constant S_ .f32 0x3F800000#32),
    TRef.unary (TRef.of (T := ⟨S_, .f32⟩) main_cst) (TRef.of (T := ⟨S32x1x1024x1024, .f32⟩) main_call0_v0) (broadcastInDim S32x1x1024x1024 ![] bcast_S_S32x1x1024x1024),
    TRef.ternary (TRef.of (T := ⟨S32x1x1024x1024, .i1⟩) main_v0) (TRef.of (T := ⟨S32x1x1024x1024, .f32⟩) main_call0_v0) (TRef.of (T := ⟨S32x1x1024x1024, .f32⟩) main_arg0) (TRef.of (T := ⟨S32x1x1024x1024, .f32⟩) main_v1) select ]

abbrev seg2 : List (HloOp τ sig (Elt F)) :=
  [ TRef.unary (TRef.of (T := ⟨S32x1x1024x1024, .f32⟩) main_v1) (TRef.of (T := ⟨S32x1x1x1024, .f32⟩) main_call1_v0) (extractStridedSlice S32x1x1x1024 ![0, 0, 1023, 0] · slices_S32x1x1024x1024_S32x1x1x1024_0_0_1023_0),
    TRef.unary (TRef.of (T := ⟨S32x1x1024x1024, .f32⟩) main_v1) (TRef.of (T := ⟨S32x1x1023x1024, .f32⟩) main_call1_v1) (extractStridedSlice S32x1x1023x1024 ![0, 0, 0, 0] · slices_S32x1x1024x1024_S32x1x1023x1024_0_0_0_0),
    TRef.binary (TRef.of (T := ⟨S32x1x1x1024, .f32⟩) main_call1_v0) (TRef.of (T := ⟨S32x1x1023x1024, .f32⟩) main_call1_v1) (TRef.of (T := ⟨S32x1x1024x1024, .f32⟩) main_v2) (fun a b => concatenate S32x1x1024x1024 2 [⟨S32x1x1x1024, a⟩, ⟨S32x1x1023x1024, b⟩] concatenates_S32x1x1x1024_S32x1x1023x1024_S32x1x1024x1024_d2),
    binary main_v2 main_v1 main_v3 (subf : (⟨S32x1x1024x1024, .f32⟩ : BufTy).Contents (Elt F) → (⟨S32x1x1024x1024, .f32⟩ : BufTy).Contents (Elt F) → (⟨S32x1x1024x1024, .f32⟩ : BufTy).Contents (Elt F)) ]

abbrev seg3 : List (HloOp τ sig (Elt F)) :=
  [ binary main_v3 main_v3 main_v4 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_0 (constant S_ .f32 0x00000000#32),
    TRef.unary (TRef.of (T := ⟨S_, .f32⟩) main_cst_0) (TRef.of (T := ⟨S32x1x1024x1024, .f32⟩) main_call2_v0) (broadcastInDim S32x1x1024x1024 ![] bcast_S_S32x1x1024x1024),
    TRef.ternary (TRef.of (T := ⟨S32x1x1024x1024, .i1⟩) main_v4) (TRef.of (T := ⟨S32x1x1024x1024, .f32⟩) main_call2_v0) (TRef.of (T := ⟨S32x1x1024x1024, .f32⟩) main_v3) (TRef.of (T := ⟨S32x1x1024x1024, .f32⟩) main_v5) select ]

abbrev seg4 : List (HloOp τ sig (Elt F)) :=
  [ TRef.unary (TRef.of (T := ⟨S32x1x1024x1024, .f32⟩) main_v5) (TRef.of (T := ⟨S32x1x1x1024, .f32⟩) main_call3_v0) (extractStridedSlice S32x1x1x1024 ![0, 0, 1023, 0] · slices_S32x1x1024x1024_S32x1x1x1024_0_0_1023_0),
    TRef.unary (TRef.of (T := ⟨S32x1x1024x1024, .f32⟩) main_v5) (TRef.of (T := ⟨S32x1x1023x1024, .f32⟩) main_call3_v1) (extractStridedSlice S32x1x1023x1024 ![0, 0, 0, 0] · slices_S32x1x1024x1024_S32x1x1023x1024_0_0_0_0),
    TRef.binary (TRef.of (T := ⟨S32x1x1x1024, .f32⟩) main_call3_v0) (TRef.of (T := ⟨S32x1x1023x1024, .f32⟩) main_call3_v1) (TRef.of (T := ⟨S32x1x1024x1024, .f32⟩) main_v6) (fun a b => concatenate S32x1x1024x1024 2 [⟨S32x1x1x1024, a⟩, ⟨S32x1x1023x1024, b⟩] concatenates_S32x1x1x1024_S32x1x1023x1024_S32x1x1024x1024_d2),
    binary main_v6 main_v5 main_v7 (subf : (⟨S32x1x1024x1024, .f32⟩ : BufTy).Contents (Elt F) → (⟨S32x1x1024x1024, .f32⟩ : BufTy).Contents (Elt F) → (⟨S32x1x1024x1024, .f32⟩ : BufTy).Contents (Elt F)) ]

abbrev seg5 : List (HloOp τ sig (Elt F)) :=
  [ binary main_v7 main_v7 main_v8 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_1 (constant S_ .f32 0x00000000#32),
    TRef.unary (TRef.of (T := ⟨S_, .f32⟩) main_cst_1) (TRef.of (T := ⟨S32x1x1024x1024, .f32⟩) main_call4_v0) (broadcastInDim S32x1x1024x1024 ![] bcast_S_S32x1x1024x1024),
    TRef.ternary (TRef.of (T := ⟨S32x1x1024x1024, .i1⟩) main_v8) (TRef.of (T := ⟨S32x1x1024x1024, .f32⟩) main_call4_v0) (TRef.of (T := ⟨S32x1x1024x1024, .f32⟩) main_v7) (TRef.of (T := ⟨S32x1x1024x1024, .f32⟩) main_v9) select ]

abbrev seg6 : List (HloOp τ sig (Elt F)) :=
  [ TRef.unary (TRef.of (T := ⟨S32x1x1024x1024, .f32⟩) main_v1) (TRef.of (T := ⟨S32x1x1024x1, .f32⟩) main_call5_v0) (extractStridedSlice S32x1x1024x1 ![0, 0, 0, 1023] · slices_S32x1x1024x1024_S32x1x1024x1_0_0_0_1023),
    TRef.unary (TRef.of (T := ⟨S32x1x1024x1024, .f32⟩) main_v1) (TRef.of (T := ⟨S32x1x1024x1023, .f32⟩) main_call5_v1) (extractStridedSlice S32x1x1024x1023 ![0, 0, 0, 0] · slices_S32x1x1024x1024_S32x1x1024x1023_0_0_0_0),
    TRef.binary (TRef.of (T := ⟨S32x1x1024x1, .f32⟩) main_call5_v0) (TRef.of (T := ⟨S32x1x1024x1023, .f32⟩) main_call5_v1) (TRef.of (T := ⟨S32x1x1024x1024, .f32⟩) main_v10) (fun a b => concatenate S32x1x1024x1024 3 [⟨S32x1x1024x1, a⟩, ⟨S32x1x1024x1023, b⟩] concatenates_S32x1x1024x1_S32x1x1024x1023_S32x1x1024x1024_d3),
    binary main_v10 main_v1 main_v11 (subf : (⟨S32x1x1024x1024, .f32⟩ : BufTy).Contents (Elt F) → (⟨S32x1x1024x1024, .f32⟩ : BufTy).Contents (Elt F) → (⟨S32x1x1024x1024, .f32⟩ : BufTy).Contents (Elt F)) ]

abbrev seg7 : List (HloOp τ sig (Elt F)) :=
  [ binary main_v11 main_v11 main_v12 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_2 (constant S_ .f32 0x00000000#32),
    TRef.unary (TRef.of (T := ⟨S_, .f32⟩) main_cst_2) (TRef.of (T := ⟨S32x1x1024x1024, .f32⟩) main_call6_v0) (broadcastInDim S32x1x1024x1024 ![] bcast_S_S32x1x1024x1024),
    TRef.ternary (TRef.of (T := ⟨S32x1x1024x1024, .i1⟩) main_v12) (TRef.of (T := ⟨S32x1x1024x1024, .f32⟩) main_call6_v0) (TRef.of (T := ⟨S32x1x1024x1024, .f32⟩) main_v11) (TRef.of (T := ⟨S32x1x1024x1024, .f32⟩) main_v13) select ]

abbrev seg8 : List (HloOp τ sig (Elt F)) :=
  [ TRef.unary (TRef.of (T := ⟨S32x1x1024x1024, .f32⟩) main_v13) (TRef.of (T := ⟨S32x1x1024x1, .f32⟩) main_call7_v0) (extractStridedSlice S32x1x1024x1 ![0, 0, 0, 1023] · slices_S32x1x1024x1024_S32x1x1024x1_0_0_0_1023),
    TRef.unary (TRef.of (T := ⟨S32x1x1024x1024, .f32⟩) main_v13) (TRef.of (T := ⟨S32x1x1024x1023, .f32⟩) main_call7_v1) (extractStridedSlice S32x1x1024x1023 ![0, 0, 0, 0] · slices_S32x1x1024x1024_S32x1x1024x1023_0_0_0_0),
    TRef.binary (TRef.of (T := ⟨S32x1x1024x1, .f32⟩) main_call7_v0) (TRef.of (T := ⟨S32x1x1024x1023, .f32⟩) main_call7_v1) (TRef.of (T := ⟨S32x1x1024x1024, .f32⟩) main_v14) (fun a b => concatenate S32x1x1024x1024 3 [⟨S32x1x1024x1, a⟩, ⟨S32x1x1024x1023, b⟩] concatenates_S32x1x1024x1_S32x1x1024x1023_S32x1x1024x1024_d3),
    binary main_v14 main_v13 main_v15 (subf : (⟨S32x1x1024x1024, .f32⟩ : BufTy).Contents (Elt F) → (⟨S32x1x1024x1024, .f32⟩ : BufTy).Contents (Elt F) → (⟨S32x1x1024x1024, .f32⟩ : BufTy).Contents (Elt F)) ]

abbrev seg9 : List (HloOp τ sig (Elt F)) :=
  [ binary main_v15 main_v15 main_v16 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_3 (constant S_ .f32 0x00000000#32),
    TRef.unary (TRef.of (T := ⟨S_, .f32⟩) main_cst_3) (TRef.of (T := ⟨S32x1x1024x1024, .f32⟩) main_call8_v0) (broadcastInDim S32x1x1024x1024 ![] bcast_S_S32x1x1024x1024),
    TRef.ternary (TRef.of (T := ⟨S32x1x1024x1024, .i1⟩) main_v16) (TRef.of (T := ⟨S32x1x1024x1024, .f32⟩) main_call8_v0) (TRef.of (T := ⟨S32x1x1024x1024, .f32⟩) main_v15) (TRef.of (T := ⟨S32x1x1024x1024, .f32⟩) main_v17) select ]

abbrev seg10 : List (HloOp τ sig (Elt F)) :=
  [ binary main_v9 main_v17 main_v18 (addf : (⟨S32x1x1024x1024, .f32⟩ : BufTy).Contents (Elt F) → (⟨S32x1x1024x1024, .f32⟩ : BufTy).Contents (Elt F) → (⟨S32x1x1024x1024, .f32⟩ : BufTy).Contents (Elt F)),
    nullary main_cst_4 (constant S_ .f32 0xBF800000#32),
    nullary main_cst_5 (constant S_ .f32 0x3F800000#32),
    TRef.unary (TRef.of (T := ⟨S_, .f32⟩) main_cst_4) (TRef.of (T := ⟨S_, .f32⟩) main_call9_v0) id,
    TRef.unary (TRef.of (T := ⟨S_, .f32⟩) main_call9_v0) (TRef.of (T := ⟨S32x1x1024x1024, .f32⟩) main_call9_v1) (broadcastInDim S32x1x1024x1024 ![] bcast_S_S32x1x1024x1024),
    TRef.binary (TRef.of (T := ⟨S32x1x1024x1024, .f32⟩) main_call9_v1) (TRef.of (T := ⟨S32x1x1024x1024, .f32⟩) main_v18) (TRef.of (T := ⟨S32x1x1024x1024, .f32⟩) main_call9_v2) maximumf,
    TRef.unary (TRef.of (T := ⟨S_, .f32⟩) main_cst_5) (TRef.of (T := ⟨S_, .f32⟩) main_call9_v3) id,
    TRef.unary (TRef.of (T := ⟨S_, .f32⟩) main_call9_v3) (TRef.of (T := ⟨S32x1x1024x1024, .f32⟩) main_call9_v4) (broadcastInDim S32x1x1024x1024 ![] bcast_S_S32x1x1024x1024),
    TRef.binary (TRef.of (T := ⟨S32x1x1024x1024, .f32⟩) main_call9_v4) (TRef.of (T := ⟨S32x1x1024x1024, .f32⟩) main_call9_v2) (TRef.of (T := ⟨S32x1x1024x1024, .f32⟩) main_v19) minimumf,
    nullary main_cst_6 (constant S_ .f32 0x3F000000#32),
    unary main_cst_6 main_v20 (broadcastInDim S32x1x1024x1024 ![] bcast_S_S32x1x1024x1024 : (⟨S_, .f32⟩ : BufTy).Contents (Elt F) → (⟨S32x1x1024x1024, .f32⟩ : BufTy).Contents (Elt F)),
    binary main_v19 main_v20 main_v21 (mulf : (⟨S32x1x1024x1024, .f32⟩ : BufTy).Contents (Elt F) → (⟨S32x1x1024x1024, .f32⟩ : BufTy).Contents (Elt F) → (⟨S32x1x1024x1024, .f32⟩ : BufTy).Contents (Elt F)) ]

abbrev seg11 : List (HloOp τ sig (Elt F)) :=
  [ binary main_v21 main_v21 main_v22 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_7 (constant S_ .f32 0x00000000#32),
    TRef.unary (TRef.of (T := ⟨S_, .f32⟩) main_cst_7) (TRef.of (T := ⟨S32x1x1024x1024, .f32⟩) main_call10_v0) (broadcastInDim S32x1x1024x1024 ![] bcast_S_S32x1x1024x1024),
    TRef.ternary (TRef.of (T := ⟨S32x1x1024x1024, .i1⟩) main_v22) (TRef.of (T := ⟨S32x1x1024x1024, .f32⟩) main_call10_v0) (TRef.of (T := ⟨S32x1x1024x1024, .f32⟩) main_v21) (TRef.of (T := ⟨S32x1x1024x1024, .f32⟩) main_v23) select ]

/-- The line is its eleven pieces laid end to end. -/
theorem ops_eq : (ops : List (HloOp τ sig (Elt F)))
    = seg1 ++ (seg2 ++ (seg3 ++ (seg4 ++ (seg5 ++ (seg6 ++ (seg7 ++ (seg8 ++ (seg9 ++ (seg10 ++ seg11))))))))) := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., unary_bufs_sub .., ternary_bufs_sub .., unary_bufs_sub .., unary_bufs_sub .., binary_bufs_sub .., binary_bufs_sub .., binary_bufs_sub .., nullary_bufs_sub .., unary_bufs_sub .., ternary_bufs_sub .., unary_bufs_sub .., unary_bufs_sub .., binary_bufs_sub .., binary_bufs_sub .., binary_bufs_sub .., nullary_bufs_sub .., unary_bufs_sub .., ternary_bufs_sub .., unary_bufs_sub .., unary_bufs_sub .., binary_bufs_sub .., binary_bufs_sub .., binary_bufs_sub .., nullary_bufs_sub .., unary_bufs_sub .., ternary_bufs_sub .., unary_bufs_sub .., unary_bufs_sub .., binary_bufs_sub .., binary_bufs_sub .., binary_bufs_sub .., nullary_bufs_sub .., unary_bufs_sub .., ternary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., ternary_bufs_sub ..⟩

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The pieces as functions -/

/-- `where(y ≠ y, fill, y)`. -/
def scrub (fill : BitVec 32) (y : (⟨S32x1x1024x1024, .f32⟩ : BufTy).Contents (Elt F)) : (⟨S32x1x1024x1024, .f32⟩ : BufTy).Contents (Elt F) :=
  select (cmpf .une y y) (broadcastInDim S32x1x1024x1024 ![] bcast_S_S32x1x1024x1024 (constant S_ .f32 fill)) y

/-- `roll(y, 1, axis 2) - y`. -/
def diffRows (y : (⟨S32x1x1024x1024, .f32⟩ : BufTy).Contents (Elt F)) : (⟨S32x1x1024x1024, .f32⟩ : BufTy).Contents (Elt F) :=
  subf (concatenate S32x1x1024x1024 2 [⟨S32x1x1x1024, extractStridedSlice S32x1x1x1024 ![0, 0, 1023, 0] y slices_S32x1x1024x1024_S32x1x1x1024_0_0_1023_0⟩, ⟨S32x1x1023x1024, extractStridedSlice S32x1x1023x1024 ![0, 0, 0, 0] y slices_S32x1x1024x1024_S32x1x1023x1024_0_0_0_0⟩] concatenates_S32x1x1x1024_S32x1x1023x1024_S32x1x1024x1024_d2) y

/-- `roll(y, 1, axis 3) - y`. -/
def diffCols (y : (⟨S32x1x1024x1024, .f32⟩ : BufTy).Contents (Elt F)) : (⟨S32x1x1024x1024, .f32⟩ : BufTy).Contents (Elt F) :=
  subf (concatenate S32x1x1024x1024 3 [⟨S32x1x1024x1, extractStridedSlice S32x1x1024x1 ![0, 0, 0, 1023] y slices_S32x1x1024x1024_S32x1x1024x1_0_0_0_1023⟩, ⟨S32x1x1024x1023, extractStridedSlice S32x1x1024x1023 ![0, 0, 0, 0] y slices_S32x1x1024x1024_S32x1x1024x1023_0_0_0_0⟩] concatenates_S32x1x1024x1_S32x1x1024x1023_S32x1x1024x1024_d3) y

/-- `clip(a + b, -1, 1) · 0.5`. -/
def clipScale (a b : (⟨S32x1x1024x1024, .f32⟩ : BufTy).Contents (Elt F)) : (⟨S32x1x1024x1024, .f32⟩ : BufTy).Contents (Elt F) :=
  mulf (minimumf (broadcastInDim S32x1x1024x1024 ![] bcast_S_S32x1x1024x1024 (id (constant S_ .f32 0x3F800000#32)))
    (maximumf (broadcastInDim S32x1x1024x1024 ![] bcast_S_S32x1x1024x1024 (id (constant S_ .f32 0xBF800000#32))) (addf a b)))
    (broadcastInDim S32x1x1024x1024 ![] bcast_S_S32x1x1024x1024 (constant S_ .f32 0x3F000000#32))

/-! ## What each piece writes, and what it leaves alone -/

variable (W : Valuation τ sig (Elt F))

theorem piece1 : after seg1 W (Proc.devRef .tc main_v1) = scrub 0x3F800000#32 (W (Proc.devRef .tc main_arg0)) := by
  after_results_simp; rfl
theorem piece2 : after seg2 W (Proc.devRef .tc main_v3) = diffRows (W (Proc.devRef .tc main_v1)) := by
  after_results_simp; rfl
theorem piece3 : after seg3 W (Proc.devRef .tc main_v5) = scrub 0x00000000#32 (W (Proc.devRef .tc main_v3)) := by
  after_results_simp; rfl
theorem piece4 : after seg4 W (Proc.devRef .tc main_v7) = diffRows (W (Proc.devRef .tc main_v5)) := by
  after_results_simp; rfl
theorem piece5 : after seg5 W (Proc.devRef .tc main_v9) = scrub 0x00000000#32 (W (Proc.devRef .tc main_v7)) := by
  after_results_simp; rfl
theorem piece6 : after seg6 W (Proc.devRef .tc main_v11) = diffCols (W (Proc.devRef .tc main_v1)) := by
  after_results_simp; rfl
theorem piece7 : after seg7 W (Proc.devRef .tc main_v13) = scrub 0x00000000#32 (W (Proc.devRef .tc main_v11)) := by
  after_results_simp; rfl
theorem piece8 : after seg8 W (Proc.devRef .tc main_v15) = diffCols (W (Proc.devRef .tc main_v13)) := by
  after_results_simp; rfl
theorem piece9 : after seg9 W (Proc.devRef .tc main_v17) = scrub 0x00000000#32 (W (Proc.devRef .tc main_v15)) := by
  after_results_simp; rfl
theorem piece10 : after seg10 W (Proc.devRef .tc main_v21)
    = clipScale (W (Proc.devRef .tc main_v9)) (W (Proc.devRef .tc main_v17)) := by
  after_results_simp; rfl
theorem piece11 : after seg11 W (Proc.devRef .tc main_v23) = scrub 0x00000000#32 (W (Proc.devRef .tc main_v21)) := by
  after_results_simp; rfl

/-- The scrubbed input outlives the row differences: the column differences read it again. -/
theorem keep2 : after seg2 W (Proc.devRef .tc main_v1) = W (Proc.devRef .tc main_v1) := by after_results_simp
theorem keep3 : after seg3 W (Proc.devRef .tc main_v1) = W (Proc.devRef .tc main_v1) := by after_results_simp
theorem keep4 : after seg4 W (Proc.devRef .tc main_v1) = W (Proc.devRef .tc main_v1) := by after_results_simp
theorem keep5 : after seg5 W (Proc.devRef .tc main_v1) = W (Proc.devRef .tc main_v1) := by after_results_simp
/-- The rows' second difference outlives the column differences: the sum reads it. -/
theorem keep6 : after seg6 W (Proc.devRef .tc main_v9) = W (Proc.devRef .tc main_v9) := by after_results_simp
theorem keep7 : after seg7 W (Proc.devRef .tc main_v9) = W (Proc.devRef .tc main_v9) := by after_results_simp
theorem keep8 : after seg8 W (Proc.devRef .tc main_v9) = W (Proc.devRef .tc main_v9) := by after_results_simp
theorem keep9 : after seg9 W (Proc.devRef .tc main_v9) = W (Proc.devRef .tc main_v9) := by after_results_simp

/-- No operation writes the argument. -/
theorem keep_arg : after ops W (Proc.devRef .tc main_arg0) = W (Proc.devRef .tc main_arg0) := by
  after_results_simp

/-! ## The stages, named -/

variable (x : (⟨S32x1x1024x1024, .f32⟩ : BufTy).Contents (Elt F))

theorem stage1 : val_main_v1 (F := F) x = scrub 0x3F800000#32 x := rfl
theorem stage3 : val_main_v3 (F := F) x = diffRows (val_main_v1 (F := F) x) := rfl
theorem stage5 : val_main_v5 (F := F) x = scrub 0x00000000#32 (val_main_v3 (F := F) x) := rfl
theorem stage7 : val_main_v7 (F := F) x = diffRows (val_main_v5 (F := F) x) := rfl
theorem stage9 : val_main_v9 (F := F) x = scrub 0x00000000#32 (val_main_v7 (F := F) x) := rfl
theorem stage11 : val_main_v11 (F := F) x = diffCols (val_main_v1 (F := F) x) := rfl
theorem stage13 : val_main_v13 (F := F) x = scrub 0x00000000#32 (val_main_v11 (F := F) x) := rfl
theorem stage15 : val_main_v15 (F := F) x = diffCols (val_main_v13 (F := F) x) := rfl
theorem stage17 : val_main_v17 (F := F) x = scrub 0x00000000#32 (val_main_v15 (F := F) x) := rfl
theorem stage21 : val_main_v21 (F := F) x = clipScale (val_main_v9 (F := F) x) (val_main_v17 (F := F) x) := rfl
theorem stage23 : val_main_v23 (F := F) x = scrub 0x00000000#32 (val_main_v21 (F := F) x) := rfl

/-! ## The line's result -/

/-- After the whole line the result buffer holds the last stage of the argument's launch contents. -/
theorem result : after ops W (Proc.devRef .tc main_v23) = val_main_v23 (F := F) (W (Proc.devRef .tc main_arg0)) := by
  rw [ops_eq]
  simp only [after_append]
  rw [piece11, piece10, piece9, keep9, piece8, keep8, piece7, keep7, piece6, keep6, piece5, keep5, piece4, keep4,
    piece3, keep3, piece2, keep2, piece1]
  rw [stage23, stage21, stage17, stage15, stage13, stage11, stage9, stage7, stage5, stage3, stage1]

/-- On every device, for any float values, from any memory with zero counters: every weakly fair execution of
    @main terminates with the result at the last stage of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = val_main_v23 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v23).trans (result (launchContents m c)),
      (h c main_arg0).trans (keep_arg (launchContents m c))⟩)
    (run_seq scopedRefs_eq scopedSems_eq defs main (fun _ => ops) main_eq (fun _ => ops_sub) m ρ)

end Cert.ReferenceIdeal.RefRun

end
-- ==== Proof.RefValue.lean ====
/-
  What the reference computes, at the extended reals.

  On the extended reals nothing differs from itself, so every "replace NaN" of the reference — `where(y ≠ y, fill, y)` — is
  the identity (`where_self`). A roll by one place along an axis is printed as the last slice of that axis laid before
  the rest; read at an index it is the array one place back around the circle (`roll_rows_apply`, `roll_cols_apply`).
  So the reference's sum of the two doubly-differenced arrays is, plane by plane, the nested Laplacian of Stencil.lean;
  it is then clamped to [-1, 1] and halved. Where the argument's entries are real numbers the nested form telescopes to
  the flat one, and the reference's result is `G` of its argument (`result_eq`).
-/
import proofs.«128905_j22711787061657_2_alg».proof.Proof.ReadP
import proofs.«128905_j22711787061657_2_alg».proof.Proof.Stencil
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.ReadP
open Idealize.ShloMosaic Idealize.ShloMosaic.ValueIdx Cert.Stencil

/-! ## Nothing differs from itself -/

/-- On the extended reals `a ≠ a` is false. -/
theorem une_self (a : Ideal .f32) : FloatOps.cmpf (F := Ideal) (φ := .f32) .une a a = 0#1 := by
  show Ideal.cmp .une a a = 0#1
  simp [Ideal.cmp]

/-- `where(y ≠ y, z, y)` is `y`. -/
theorem where_self (y z : FVec Ideal S32x1x1024x1024 .f32) : select (cmpf .une y y) z y = y := by
  funext i
  show Scalar.select (FloatOps.cmpf (F := Ideal) .une (y i) (y i)) (z i) (y i) = y i
  rw [une_self]
  exact select_zero _ _

/-! ## A roll by one place, read at an index -/

/-- The array one place back along the rows (axis 2), around the circle. -/
def backRows {α : Type} (y : S32x1x1024x1024.Idx → α) : S32x1x1024x1024.Idx → α :=
  fun i => y (ix4 (i 0) (i 1) (back1 (i 2)) (i 3))

/-- The array one place back along the columns (axis 3), around the circle. -/
def backCols {α : Type} (y : S32x1x1024x1024.Idx → α) : S32x1x1024x1024.Idx → α :=
  fun i => y (ix4 (i 0) (i 1) (i 2) (back1 (i 3)))

/-- The last row laid before the first 1023 rows: at row `h` that is row `h - 1` around the circle. -/
theorem roll_rows_apply {α : Type} (y : S32x1x1024x1024.Idx → α)
    (hs1 : S32x1x1024x1024.Slices ![0, 0, 1023, 0] S32x1x1x1024)
    (hs2 : S32x1x1024x1024.Slices ![0, 0, 0, 0] S32x1x1023x1024)
    (hc : Shape.Concatenates [S32x1x1x1024, S32x1x1023x1024] S32x1x1024x1024 2)
    (b : Fin 32) (c : Fin 1) (h w : Fin 1024) :
    concatenate S32x1x1024x1024 2 [⟨S32x1x1x1024, extractStridedSlice S32x1x1x1024 ![0, 0, 1023, 0] y hs1⟩,
      ⟨S32x1x1023x1024, extractStridedSlice S32x1x1023x1024 ![0, 0, 0, 0] y hs2⟩] hc (ix4 b c h w)
      = y (ix4 b c (back1 h) w) := by
  have hlt : h.val < 1024 := h.isLt
  by_cases h0 : h.val = 0
  · refine (concatenate_pair_apply_left (t := S32x1x1024x1024) (s₁ := S32x1x1x1024) (s₂ := S32x1x1023x1024) (2 : Fin 4)
      (extractStridedSlice S32x1x1x1024 ![0, 0, 1023, 0] y hs1) (extractStridedSlice S32x1x1023x1024 ![0, 0, 0, 0] y hs2)
      hc (ix4 b c h w) rfl (ix4 b c (0 : Fin 1) w) ?_).trans ?_
    · intro a
      match a with
      | ⟨0, _⟩ => rfl
      | ⟨1, _⟩ => rfl
      | ⟨2, _⟩ => exact h0.symm
      | ⟨3, _⟩ => rfl
    · refine extractStridedSlice_apply ![0, 0, 1023, 0] y hs1 _ (ix4 b c (back1 h) w) ?_
      intro a
      match a with
      | ⟨0, _⟩ => show b.val = 0 + b.val; omega
      | ⟨1, _⟩ => show c.val = 0 + c.val; omega
      | ⟨2, _⟩ => show (h.val + 1023) % 1024 = 1023 + 0; omega
      | ⟨3, _⟩ => show w.val = 0 + w.val; omega
  · refine (concatenate_pair_apply_right (t := S32x1x1024x1024) (s₁ := S32x1x1x1024) (s₂ := S32x1x1023x1024) (2 : Fin 4)
      (extractStridedSlice S32x1x1x1024 ![0, 0, 1023, 0] y hs1) (extractStridedSlice S32x1x1023x1024 ![0, 0, 0, 0] y hs2)
      hc (ix4 b c h w) rfl rfl (ix4 b c (⟨h.val - 1, by omega⟩ : Fin 1023) w) ?_ ?_).trans ?_
    · intro a ha
      match a with
      | ⟨0, _⟩ => rfl
      | ⟨1, _⟩ => rfl
      | ⟨2, _⟩ => exact absurd rfl ha
      | ⟨3, _⟩ => rfl
    · show (h.val - 1) + 1 = h.val; omega
    · refine extractStridedSlice_apply ![0, 0, 0, 0] y hs2 _ (ix4 b c (back1 h) w) ?_
      intro a
      match a with
      | ⟨0, _⟩ => show b.val = 0 + b.val; omega
      | ⟨1, _⟩ => show c.val = 0 + c.val; omega
      | ⟨2, _⟩ => show (h.val + 1023) % 1024 = 0 + (h.val - 1); omega
      | ⟨3, _⟩ => show w.val = 0 + w.val; omega

/-- The last column laid before the first 1023 columns: at column `w` that is column `w - 1` around the circle. -/
theorem roll_cols_apply {α : Type} (y : S32x1x1024x1024.Idx → α)
    (hs1 : S32x1x1024x1024.Slices ![0, 0, 0, 1023] S32x1x1024x1)
    (hs2 : S32x1x1024x1024.Slices ![0, 0, 0, 0] S32x1x1024x1023)
    (hc : Shape.Concatenates [S32x1x1024x1, S32x1x1024x1023] S32x1x1024x1024 3)
    (b : Fin 32) (c : Fin 1) (h w : Fin 1024) :
    concatenate S32x1x1024x1024 3 [⟨S32x1x1024x1, extractStridedSlice S32x1x1024x1 ![0, 0, 0, 1023] y hs1⟩,
      ⟨S32x1x1024x1023, extractStridedSlice S32x1x1024x1023 ![0, 0, 0, 0] y hs2⟩] hc (ix4 b c h w)
      = y (ix4 b c h (back1 w)) := by
  have hlt : w.val < 1024 := w.isLt
  by_cases w0 : w.val = 0
  · refine (concatenate_pair_apply_left (t := S32x1x1024x1024) (s₁ := S32x1x1024x1) (s₂ := S32x1x1024x1023) (3 : Fin 4)
      (extractStridedSlice S32x1x1024x1 ![0, 0, 0, 1023] y hs1) (extractStridedSlice S32x1x1024x1023 ![0, 0, 0, 0] y hs2)
      hc (ix4 b c h w) rfl (ix4 b c h (0 : Fin 1)) ?_).trans ?_
    · intro a
      match a with
      | ⟨0, _⟩ => rfl
      | ⟨1, _⟩ => rfl
      | ⟨2, _⟩ => rfl
      | ⟨3, _⟩ => exact w0.symm
    · refine extractStridedSlice_apply ![0, 0, 0, 1023] y hs1 _ (ix4 b c h (back1 w)) ?_
      intro a
      match a with
      | ⟨0, _⟩ => show b.val = 0 + b.val; omega
      | ⟨1, _⟩ => show c.val = 0 + c.val; omega
      | ⟨2, _⟩ => show h.val = 0 + h.val; omega
      | ⟨3, _⟩ => show (w.val + 1023) % 1024 = 1023 + 0; omega
  · refine (concatenate_pair_apply_right (t := S32x1x1024x1024) (s₁ := S32x1x1024x1) (s₂ := S32x1x1024x1023) (3 : Fin 4)
      (extractStridedSlice S32x1x1024x1 ![0, 0, 0, 1023] y hs1) (extractStridedSlice S32x1x1024x1023 ![0, 0, 0, 0] y hs2)
      hc (ix4 b c h w) rfl rfl (ix4 b c h (⟨w.val - 1, by omega⟩ : Fin 1023)) ?_ ?_).trans ?_
    · intro a ha
      match a with
      | ⟨0, _⟩ => rfl
      | ⟨1, _⟩ => rfl
      | ⟨2, _⟩ => rfl
      | ⟨3, _⟩ => exact absurd rfl ha
    · show (w.val - 1) + 1 = w.val; omega
    · refine extractStridedSlice_apply ![0, 0, 0, 0] y hs2 _ (ix4 b c h (back1 w)) ?_
      intro a
      match a with
      | ⟨0, _⟩ => show b.val = 0 + b.val; omega
      | ⟨1, _⟩ => show c.val = 0 + c.val; omega
      | ⟨2, _⟩ => show h.val = 0 + h.val; omega
      | ⟨3, _⟩ => show (w.val + 1023) % 1024 = 0 + (w.val - 1); omega

/-- The whole rolled array, along the rows. -/
theorem roll_rows_eq {α : Type} (y : S32x1x1024x1024.Idx → α)
    (hs1 : S32x1x1024x1024.Slices ![0, 0, 1023, 0] S32x1x1x1024)
    (hs2 : S32x1x1024x1024.Slices ![0, 0, 0, 0] S32x1x1023x1024)
    (hc : Shape.Concatenates [S32x1x1x1024, S32x1x1023x1024] S32x1x1024x1024 2) :
    concatenate S32x1x1024x1024 2 [⟨S32x1x1x1024, extractStridedSlice S32x1x1x1024 ![0, 0, 1023, 0] y hs1⟩,
      ⟨S32x1x1023x1024, extractStridedSlice S32x1x1023x1024 ![0, 0, 0, 0] y hs2⟩] hc = backRows y := by
  funext i
  obtain ⟨b, c, h, w, rfl⟩ : ∃ (b : Fin 32) (c : Fin 1) (h w : Fin 1024), i = ix4 b c h w :=
    ⟨i 0, i 1, i 2, i 3, eq_ix4 i⟩
  exact roll_rows_apply y hs1 hs2 hc b c h w

/-- The whole rolled array, along the columns. -/
theorem roll_cols_eq {α : Type} (y : S32x1x1024x1024.Idx → α)
    (hs1 : S32x1x1024x1024.Slices ![0, 0, 0, 1023] S32x1x1024x1)
    (hs2 : S32x1x1024x1024.Slices ![0, 0, 0, 0] S32x1x1024x1023)
    (hc : Shape.Concatenates [S32x1x1024x1, S32x1x1024x1023] S32x1x1024x1024 3) :
    concatenate S32x1x1024x1024 3 [⟨S32x1x1024x1, extractStridedSlice S32x1x1024x1 ![0, 0, 0, 1023] y hs1⟩,
      ⟨S32x1x1024x1023, extractStridedSlice S32x1x1024x1023 ![0, 0, 0, 0] y hs2⟩] hc = backCols y := by
  funext i
  obtain ⟨b, c, h, w, rfl⟩ : ∃ (b : Fin 32) (c : Fin 1) (h w : Fin 1024), i = ix4 b c h w :=
    ⟨i 0, i 1, i 2, i 3, eq_ix4 i⟩
  exact roll_cols_apply y hs1 hs2 hc b c h w

/-! ## The reference's stages as whole arrays -/

variable (x : FVec Ideal S32x1x1024x1024 .f32)

/-- The scrubbed input is the input. -/
theorem v1_eq : val_main_v1 (F := Ideal) x = x := where_self x _

/-- The first difference along the rows. -/
theorem v3_eq : val_main_v3 (F := Ideal) x = subf (backRows x) x := by
  unfold val_main_v3 val_main_v2 val_main_call1_v0 val_main_call1_v1
  rw [v1_eq, roll_rows_eq]

theorem v5_eq : val_main_v5 (F := Ideal) x = val_main_v3 (F := Ideal) x := where_self _ _

/-- The second difference along the rows. -/
theorem v9_eq : val_main_v9 (F := Ideal) x = subf (backRows (subf (backRows x) x)) (subf (backRows x) x) := by
  have e7 : val_main_v7 (F := Ideal) x = subf (backRows (subf (backRows x) x)) (subf (backRows x) x) := by
    unfold val_main_v7 val_main_v6 val_main_call3_v0 val_main_call3_v1
    rw [v5_eq, v3_eq, roll_rows_eq]
  exact (where_self _ _).trans e7

/-- The first difference along the columns. -/
theorem v11_eq : val_main_v11 (F := Ideal) x = subf (backCols x) x := by
  unfold val_main_v11 val_main_v10 val_main_call5_v0 val_main_call5_v1
  rw [v1_eq, roll_cols_eq]

theorem v13_eq : val_main_v13 (F := Ideal) x = val_main_v11 (F := Ideal) x := where_self _ _

/-- The second difference along the columns. -/
theorem v17_eq : val_main_v17 (F := Ideal) x = subf (backCols (subf (backCols x) x)) (subf (backCols x) x) := by
  have e15 : val_main_v15 (F := Ideal) x = subf (backCols (subf (backCols x) x)) (subf (backCols x) x) := by
    unfold val_main_v15 val_main_v14 val_main_call7_v0 val_main_call7_v1
    rw [v13_eq, v11_eq, roll_cols_eq]
  exact (where_self _ _).trans e15

/-- The sum of the two second differences at `(b, c, h, w)` is the nested Laplacian of plane `(b, c)`. -/
theorem v18_apply (b : Fin 32) (c : Fin 1) (h w : Fin 1024) :
    val_main_v18 (F := Ideal) x (ix4 b c h w) = nested (plane x b c) h w := by
  unfold val_main_v18
  rw [v9_eq, v17_eq]
  rfl

/-- The three broadcast literals, read at an index. -/
theorem lo_apply (i : S32x1x1024x1024.Idx) : val_main_call9_v1 (F := Ideal) i = negOne :=
  (val_main_call9_v1_apply i).trans rfl
theorem hi_apply (i : S32x1x1024x1024.Idx) : val_main_call9_v4 (F := Ideal) i = one :=
  (val_main_call9_v4_apply i).trans rfl
theorem half_apply (i : S32x1x1024x1024.Idx) : val_main_v20 (F := Ideal) i = half :=
  (val_main_v20_apply i).trans rfl

/-- THE REFERENCE'S RESULT is `G` of its argument, where the argument's entries are real numbers. -/
theorem result_eq (hx : ∀ i, ∃ r : ℝ, x i = (r : EReal)) : val_main_v23 (F := Ideal) x = G x := by
  have e23 : val_main_v23 (F := Ideal) x = val_main_v21 (F := Ideal) x := where_self _ _
  rw [e23]
  funext i
  obtain ⟨b, c, h, w, rfl⟩ : ∃ (b : Fin 32) (c : Fin 1) (h w : Fin 1024), i = ix4 b c h w :=
    ⟨i 0, i 1, i 2, i 3, eq_ix4 i⟩
  show min (val_main_call9_v4 (F := Ideal) (ix4 b c h w))
      (max (val_main_call9_v1 (F := Ideal) (ix4 b c h w)) (val_main_v18 (F := Ideal) x (ix4 b c h w)))
      * val_main_v20 (F := Ideal) (ix4 b c h w) = _
  rw [hi_apply, lo_apply, half_apply, v18_apply, nested_eq_flat (plane x b c) (fun h' w' => hx (ix4 b c h' w'))]
  rfl

end Cert.ReferenceIdeal.RefValue

end
-- ==== Proof.Finite.lean ====
/-
  From the precondition to real numbers.

  The precondition says: the conjunction, over every index, of `|x| < +∞` is true. Each conjunct is then true, and an
  extended real whose absolute value (`max x (-x)`) lies strictly below `+∞` is neither infinity: it is a real number.
-/
import proofs.«128905_j22711787061657_2_alg».proof.Pre_finite_inputs
import Idealize.ShloMosaic.PureOps.Ideal
import Idealize.ShloMosaic.Lib.ReduceAll
import Idealize.ShloMosaic.Lib.ValueIdx

noncomputable section

namespace Cert.Pre_finite_inputs.Reals

open Idealize.ShloMosaic Cert.Pre_finite_inputs

/-- The rank-0 shape has one index. -/
instance : Subsingleton S_.Idx := ⟨fun a b => funext fun d => d.elim0⟩

/-- The pattern `0x7F800000` is `+∞`. -/
theorem inf_pattern : Ideal.ofBits .f32 0x7F800000#32 = (⊤ : EReal) := by
  simp [Ideal.ofBits, Ideal.ieee]

/-- An extended real whose absolute value is strictly below `+∞` is a real number. -/
theorem real_of_abs_lt (x : EReal)
    (h : Ideal.cmp .olt (max x (-x)) (Ideal.ofBits .f32 0x7F800000#32) = 1#1) : ∃ r : ℝ, x = (r : EReal) := by
  rw [inf_pattern] at h
  have h' : max x (-x) < ⊤ := by
    by_contra hn
    simp [Ideal.cmp, hn] at h
  induction x using EReal.rec with
  | bot => simp at h'
  | coe r => exact ⟨r, rfl⟩
  | top => simp at h'

/-- Under the precondition every entry of the argument is a real number. -/
theorem all_real [Facts] (x : FVec Ideal S32x1x1024x1024 .f32) (h : fn (F := Ideal) x = fun _ => 1#1)
    (i : S32x1x1024x1024.Idx) : ∃ r : ℝ, x i = (r : EReal) := by
  have h0 := congrFun h ValueIdx.ix0
  dsimp only [fn] at h0
  have hi := Host.reduce_andi_all _ _ _ _ _ h0 i
  exact real_of_abs_lt (x i) hi

end Cert.Pre_finite_inputs.Reals

end
-- ==== Proof.lean ====
/-
  The certificate of the roll-based Laplacian kernel against its jnp reference.

  Both programs send a stack of 32 × 1 planes of 1024 × 1024 numbers to the clipped, halved discrete Laplacian of each
  plane on the torus: `clip(Δp, -1, 1) / 2` with `Δp[h, w] = p[h-2, w] - 2 p[h-1, w] + p[h, w-2] - 2 p[h, w-1] + 2 p[h, w]`,
  all coordinates modulo 1024.

  * The kernel forms the sum directly, left to right, from four rotations of the plane (KernelValue.lean: its result
    array is `Stencil.G` of the argument).
  * The reference takes the backward difference `roll(y) - y` twice along each axis, scrubbing NaNs in between; on the
    extended reals nothing is a NaN, so the scrubs are identities, and the result is the nested form of the same
    Laplacian (RefRun.lean: the run, stage by stage; RefValue.lean: the stages at an index).
  * The nested differences telescope to the direct sum only where subtraction cancels, that is on real numbers; the
    precondition — every input finite — says the argument's entries are real (Finite.lean), and there the two forms are
    one `ring` identity (Stencil.lean).

  The three frames are the generated frame runs of the two kernels and the reference's run with its result dropped;
  the idealization rewrote nothing, so `preserves` is `True`.
-/
import proofs.«128905_j22711787061657_2_alg».proof.Defs
import proofs.«128905_j22711787061657_2_alg».proof.Proof.Gen.Kernel
import proofs.«128905_j22711787061657_2_alg».proof.Proof.Gen.Kernel.Skeleton
import proofs.«128905_j22711787061657_2_alg».proof.Proof.Gen.Kernel.Launch
import proofs.«128905_j22711787061657_2_alg».proof.Proof.Gen.Kernel.Points
import proofs.«128905_j22711787061657_2_alg».proof.Proof.Gen.Kernel.Frame
import proofs.«128905_j22711787061657_2_alg».proof.Proof.Gen.KernelIdeal
import proofs.«128905_j22711787061657_2_alg».proof.Proof.Gen.KernelIdeal.Skeleton
import proofs.«128905_j22711787061657_2_alg».proof.Proof.Gen.KernelIdeal.Launch
import proofs.«128905_j22711787061657_2_alg».proof.Proof.Gen.KernelIdeal.Points
import proofs.«128905_j22711787061657_2_alg».proof.Proof.Gen.KernelIdeal.Frame
import proofs.«128905_j22711787061657_2_alg».proof.Proof.Gen.KernelIdeal.Value
import proofs.«128905_j22711787061657_2_alg».proof.Proof.Gen.ReferenceIdeal
import proofs.«128905_j22711787061657_2_alg».proof.Proof.Gen.Pre_finite_inputs
import proofs.«128905_j22711787061657_2_alg».proof.Proof.KernelValue
import proofs.«128905_j22711787061657_2_alg».proof.Proof.RefRun
import proofs.«128905_j22711787061657_2_alg».proof.Proof.RefValue
import proofs.«128905_j22711787061657_2_alg».proof.Proof.Finite
import Idealize.ShloMosaic.Adequacy
import Idealize.ShloMosaic.Init

noncomputable section

namespace Cert.Proof

open Idealize.ShloMosaic Idealize.SL.Sem

/-- The word-level kernel runs and keeps its argument: its generated frame run. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its argument: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- At the extended reals the kernel's result array ends at `G` of its argument and the reference's at its last stage
    of an argument that agrees; the precondition makes the entries real, and there the last stage is `G`. -/
theorem algebraic : Cert.algebraic_KernelIdeal_ReferenceIdeal := by
  intro m ρ m' ρ' hpre hagree
  refine ⟨fun c => Cert.Stencil.G (m ((c.tc : Thread Cert.KernelIdeal.nD Cert.KernelIdeal.τ).loc Cert.KernelIdeal.main_arg0)),
    Cert.KernelIdeal.Lap.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.RefValue.result_eq _ (Cert.Pre_finite_inputs.Reals.all_real _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
